-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x16384x8 : Shape := ⟨3, ![32, 16384, 8]⟩
abbrev S8x9 : Shape := ⟨2, ![8, 9]⟩
abbrev S1 : Shape := ⟨1, ![1]⟩
abbrev S_ : Shape := ⟨0, ![]⟩

class Facts : Prop where
  bcast_S_S32x16384x8 : S_.BroadcastsInDim S32x16384x8 (![] : Fin 0 → Fin S32x16384x8.rank)
  reducesTo_S32x16384x8_S_d0_1_2 : S32x16384x8.ReducesTo [0, 1, 2] S_
  h_S_ : 0 < S_.numel
  bcast_S_S8x9 : S_.BroadcastsInDim S8x9 (![] : Fin 0 → Fin S8x9.rank)
  reducesTo_S8x9_S_d0_1 : S8x9.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S32x16384x8 .f32) (main_arg1 : FVec F S8x9 .f32) (main_arg2 : FVec F S1 .f32) : IVec S_ 1 :=
  let main_v0 : FVec F S32x16384x8 .f32 := Host.absf main_arg0
  let main_cst : FVec F S_ .f32 := constant S_ .f32 0x7F800000#32
  let main_v1 : FVec F S32x16384x8 .f32 := broadcastInDim S32x16384x8 ![] bcast_S_S32x16384x8 main_cst
  let main_v2 : IVec S32x16384x8 1 := cmpf .olt main_v0 main_v1
  let main_c : IVec S_ 1 := constantI S_ 1 1#1
  let main_v3 : IVec S_ 1 := (fun x v => Host.reduce IntOp.andi x v reducesTo_S32x16384x8_S_d0_1_2 h_S_) main_v2 main_c
  let main_v4 : FVec F S8x9 .f32 := Host.absf main_arg1
  let main_cst_0 : FVec F S_ .f32 := constant S_ .f32 0x7F800000#32
  let main_v5 : FVec F S8x9 .f32 := broadcastInDim S8x9 ![] bcast_S_S8x9 main_cst_0
  let main_v6 : IVec S8x9 1 := cmpf .olt main_v4 main_v5
  let main_c_1 : IVec S_ 1 := constantI S_ 1 1#1
  let main_v7 : IVec S_ 1 := (fun x v => Host.reduce IntOp.andi x v reducesTo_S8x9_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S32x16384x8 : Shape := ⟨3, ![32, 16384, 8]⟩
abbrev S8x9 : Shape := ⟨2, ![8, 9]⟩
abbrev S1 : Shape := ⟨1, ![1]⟩
abbrev S32x8x16384 : Shape := ⟨3, ![32, 8, 16384]⟩
abbrev S32x8x16375 : Shape := ⟨3, ![32, 8, 16375]⟩
abbrev S1x8x16384 : Shape := ⟨3, ![1, 8, 16384]⟩
abbrev S1x8x16375 : Shape := ⟨3, ![1, 8, 16375]⟩
abbrev S8x16384 : Shape := ⟨2, ![8, 16384]⟩
abbrev S8x16375 : Shape := ⟨2, ![8, 16375]⟩
abbrev S8x1 : Shape := ⟨2, ![8, 1]⟩
abbrev S32x16375x8 : Shape := ⟨3, ![32, 16375, 8]⟩

abbrev nBuf : Space → Nat
  | .hbm => 6
  | .vmem => 6
  | .smem => 0
  | _ => 0

abbrev bufTy : (tb : Table) → Fin (tcTables nBuf tb) → BufTy
  | .hbm, ⟨0, _⟩ => ⟨S32x16384x8, .f32⟩
  | .hbm, ⟨1, _⟩ => ⟨S8x9, .f32⟩
  | .hbm, ⟨2, _⟩ => ⟨S1, .f32⟩
  | .hbm, ⟨3, _⟩ => ⟨S32x8x16384, .f32⟩
  | .hbm, ⟨4, _⟩ => ⟨S32x8x16375, .f32⟩
  | .hbm, ⟨5, _⟩ => ⟨S32x16375x8, .f32⟩
  | .local _ .vmem, ⟨0, _⟩ => ⟨S1x8x16384, .f32⟩
  | .local _ .vmem, ⟨1, _⟩ => ⟨S1x8x16384, .f32⟩
  | .local _ .vmem, ⟨2, _⟩ => ⟨S8x9, .f32⟩
  | .local _ .vmem, ⟨3, _⟩ => ⟨S1, .f32⟩
  | .local _ .vmem, ⟨4, _⟩ => ⟨S1x8x16375, .f32⟩
  | .local _ .vmem, ⟨5, _⟩ => ⟨S1x8x16375, .f32⟩
  | _, _ => ⟨S32x16384x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8x16375 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x16384x8_S32x8x16384_0_2_1 : S32x16384x8.Transposes [0, 2, 1] S32x8x16384
  inb_S1x8x16384_S1x8x16384_0_0_0 : ∀ a, (![0, 0, 0] : Fin 3 → Nat) a + S1x8x16384.size a ≤ S1x8x16384.size a
  h_S1x8x16384 : 0 < S1x8x16384.numel
  shapeCasts_S1x8x16384_S8x16384 : S1x8x16384.ShapeCasts S8x16384
  inb_S8x9_S8x9_0_0 : ∀ a, (![0, 0] : Fin 2 → Nat) a + S8x9.size a ≤ S8x9.size a
  h_S8x9 : 0 < S8x9.numel
  inb_S1_S1_0 : ∀ a, (![0] : Fin 1 → Nat) a + S1.size a ≤ S1.size a
  h_S1 : 0 < S1.numel
  inpos_S1_p0 : ∀ a, (![0] : Fin 1 → Nat) a < S1.size a
  slices_S8x16384_o0_0_S8x16375 : S8x16384.Slices ![0, 0] S8x16375
  slices_S8x9_o0_0_S8x1 : S8x9.Slices ![0, 0] S8x1
  broadcasts_S8x1_S8x16375 : S8x1.Broadcasts S8x16375
  slices_S8x9_o0_1_S8x1 : S8x9.Slices ![0, 1] S8x1
  slices_S8x16384_o0_1_S8x16375 : S8x16384.Slices ![0, 1] S8x16375
  slices_S8x9_o0_2_S8x1 : S8x9.Slices ![0, 2] S8x1
  slices_S8x16384_o0_2_S8x16375 : S8x16384.Slices ![0, 2] S8x16375
  slices_S8x9_o0_3_S8x1 : S8x9.Slices ![0, 3] S8x1
  slices_S8x16384_o0_3_S8x16375 : S8x16384.Slices ![0, 3] S8x16375
  slices_S8x9_o0_4_S8x1 : S8x9.Slices ![0, 4] S8x1
  slices_S8x16384_o0_4_S8x16375 : S8x16384.Slices ![0, 4] S8x16375
  slices_S8x9_o0_5_S8x1 : S8x9.Slices ![0, 5] S8x1
  slices_S8x16384_o0_5_S8x16375 : S8x16384.Slices ![0, 5] S8x16375
  slices_S8x9_o0_6_S8x1 : S8x9.Slices ![0, 6] S8x1
  slices_S8x16384_o0_6_S8x16375 : S8x16384.Slices ![0, 6] S8x16375
  slices_S8x9_o0_7_S8x1 : S8x9.Slices ![0, 7] S8x1
  slices_S8x16384_o0_7_S8x16375 : S8x16384.Slices ![0, 7] S8x16375
  slices_S8x9_o0_8_S8x1 : S8x9.Slices ![0, 8] S8x1
  inb_S1x8x16375_S1x8x16375_0_0_0 : ∀ a, (![0, 0, 0] : Fin 3 → Nat) a + S1x8x16375.size a ≤ S1x8x16375.size a
  h_S1x8x16375 : 0 < S1x8x16375.numel
  shapeCasts_S1x8x16375_S8x16375 : S1x8x16375.ShapeCasts S8x16375
  shapeCasts_S8x16375_S1x8x16375 : S8x16375.ShapeCasts S1x8x16375
  transposes_S32x8x16375_S32x16375x8_0_2_1 : S32x8x16375.Transposes [0, 2, 1] S32x16375x8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x16384.size a ≤ S32x8x16384.size a
  hwx0_0 : ∀ i : grid0.Coords, EltTy.bits .f32 = 32 ∨ (Rect.block (s := S32x8x16384) S1x8x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x9.size a ≤ S8x9.size a
  hwx0_1 : ∀ i : grid0.Coords, EltTy.bits .f32 = 32 ∨ (Rect.block (s := S8x9) S8x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x16375.size a ≤ S32x8x16375.size a
  hwx0_3 : ∀ i : grid0.Coords, EltTy.bits .f32 = 32 ∨ (Rect.block (s := S32x8x16375) S1x8x16375.size (cc0_transform_3 i) (hinb0_3 i)).WholeWords (EltTy.packing .f32)

variable [Facts₀]

abbrev win0_0 : Pipeline.Window sig grid0 :=
  Pipeline.Window.ofSpec (Memref.whole main_v0) S1x8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8x16375.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x16384x8 : Shape := ⟨3, ![32, 16384, 8]⟩
abbrev S8x9 : Shape := ⟨2, ![8, 9]⟩
abbrev S1 : Shape := ⟨1, ![1]⟩
abbrev S32x16375x8 : Shape := ⟨3, ![32, 16375, 8]⟩
abbrev S8x1 : Shape := ⟨2, ![8, 1]⟩
abbrev S8 : Shape := ⟨1, ![8]⟩
abbrev S1x1x8 : Shape := ⟨3, ![1, 1, 8]⟩
abbrev S_ : Shape := ⟨0, ![]⟩
abbrev S1x1x1 : Shape := ⟨3, ![1, 1, 1]⟩

abbrev nBuf : Space → Nat
  | .hbm => 86
  | .vmem => 0
  | .smem => 0
  | _ => 0

abbrev bufTy : (tb : Table) → Fin (tcTables nBuf tb) → BufTy
  | .hbm, ⟨0, _⟩ => ⟨S32x16384x8, .f32⟩
  | .hbm, ⟨1, _⟩ => ⟨S8x9, .f32⟩
  | .hbm, ⟨2, _⟩ => ⟨S1, .f32⟩
  | .hbm, ⟨3, _⟩ => ⟨S32x16375x8, .f32⟩
  | .hbm, ⟨4, _⟩ => ⟨S8x1, .f32⟩
  | .hbm, ⟨5, _⟩ => ⟨S8, .f32⟩
  | .hbm, ⟨6, _⟩ => ⟨S1x1x8, .f32⟩
  | .hbm, ⟨7, _⟩ => ⟨S32x16375x8, .f32⟩
  | .hbm, ⟨8, _⟩ => ⟨S32x16375x8, .f32⟩
  | .hbm, ⟨9, _⟩ => ⟨S_, .f32⟩
  | .hbm, ⟨10, _⟩ => ⟨S32x16375x8, .f32⟩
  | .hbm, ⟨11, _⟩ => ⟨S32x16375x8, .f32⟩
  | .hbm, ⟨12, _⟩ => ⟨S8x1, .f32⟩
  | .hbm, ⟨13, _⟩ => ⟨S8, .f32⟩
  | .hbm, ⟨14, _⟩ => ⟨S1x1x8, .f32⟩
  | .hbm, ⟨15, _⟩ => ⟨S32x16375x8, .f32⟩
  | .hbm, ⟨16, _⟩ => ⟨S32x16375x8, .f32⟩
  | .hbm, ⟨17, _⟩ => ⟨S32x16375x8, .f32⟩
  | .hbm, ⟨18, _⟩ => ⟨S32x16375x8, .f32⟩
  | .hbm, ⟨19, _⟩ => ⟨S32x16375x8, .f32⟩
  | .hbm, ⟨20, _⟩ => ⟨S32x16375x8, .f32⟩
  | .hbm, ⟨21, _⟩ => ⟨S8x1, .f32⟩
  | .hbm, ⟨22, _⟩ => ⟨S8, .f32⟩
  | .hbm, ⟨23, _⟩ => ⟨S1x1x8, .f32⟩
  | .hbm, ⟨24, _⟩ => ⟨S32x16375x8, .f32⟩
  | .hbm, ⟨25, _⟩ => ⟨S32x16375x8, .f32⟩
  | .hbm, ⟨26, _⟩ => ⟨S32x16375x8, .f32⟩
  | .hbm, ⟨27, _⟩ => ⟨S32x16375x8, .f32⟩
  | .hbm, ⟨28, _⟩ => ⟨S32x16375x8, .f32⟩
  | .hbm, ⟨29, _⟩ => ⟨S32x16375x8, .f32⟩
  | .hbm, ⟨30, _⟩ => ⟨S8x1, .f32⟩
  | .hbm, ⟨31, _⟩ => ⟨S8, .f32⟩
  | .hbm, ⟨32, _⟩ => ⟨S1x1x8, .f32⟩
  | .hbm, ⟨33, _⟩ => ⟨S32x16375x8, .f32⟩
  | .hbm, ⟨34, _⟩ => ⟨S32x16375x8, .f32⟩
  | .hbm, ⟨35, _⟩ => ⟨S32x16375x8, .f32⟩
  | .hbm, ⟨36, _⟩ => ⟨S32x16375x8, .f32⟩
  | .hbm, ⟨37, _⟩ => ⟨S32x16375x8, .f32⟩
  | .hbm, ⟨38, _⟩ => ⟨S32x16375x8, .f32⟩
  | .hbm, ⟨39, _⟩ => ⟨S8x1, .f32⟩
  | .hbm, ⟨40, _⟩ => ⟨S8, .f32⟩
  | .hbm, ⟨41, _⟩ => ⟨S1x1x8, .f32⟩
  | .hbm, ⟨42, _⟩ => ⟨S32x16375x8, .f32⟩
  | .hbm, ⟨43, _⟩ => ⟨S32x16375x8, .f32⟩
  | .hbm, ⟨44, _⟩ => ⟨S32x16375x8, .f32⟩
  | .hbm, ⟨45, _⟩ => ⟨S32x16375x8, .f32⟩
  | .hbm, ⟨46, _⟩ => ⟨S32x16375x8, .f32⟩
  | .hbm, ⟨47, _⟩ => ⟨S32x16375x8, .f32⟩
  | .hbm, ⟨48, _⟩ => ⟨S8x1, .f32⟩
  | .hbm, ⟨49, _⟩ => ⟨S8, .f32⟩
  | .hbm, ⟨50, _⟩ => ⟨S1x1x8, .f32⟩
  | .hbm, ⟨51, _⟩ => ⟨S32x16375x8, .f32⟩
  | .hbm, ⟨52, _⟩ => ⟨S32x16375x8, .f32⟩
  | .hbm, ⟨53, _⟩ => ⟨S32x16375x8, .f32⟩
  | .hbm, ⟨54, _⟩ => ⟨S32x16375x8, .f32⟩
  | .hbm, ⟨55, _⟩ => ⟨S32x16375x8, .f32⟩
  | .hbm, ⟨56, _⟩ => ⟨S32x16375x8, .f32⟩
  | .hbm, ⟨57, _⟩ => ⟨S8x1, .f32⟩
  | .hbm, ⟨58, _⟩ => ⟨S8, .f32⟩
  | .hbm, ⟨59, _⟩ => ⟨S1x1x8, .f32⟩
  | .hbm, ⟨60, _⟩ => ⟨S32x16375x8, .f32⟩
  | .hbm, ⟨61, _⟩ => ⟨S32x16375x8, .f32⟩
  | .hbm, ⟨62, _⟩ => ⟨S32x16375x8, .f32⟩
  | .hbm, ⟨63, _⟩ => ⟨S32x16375x8, .f32⟩
  | .hbm, ⟨64, _⟩ => ⟨S32x16375x8, .f32⟩
  | .hbm, ⟨65, _⟩ => ⟨S32x16375x8, .f32⟩
  | .hbm, ⟨66, _⟩ => ⟨S8x1, .f32⟩
  | .hbm, ⟨67, _⟩ => ⟨S8, .f32⟩
  | .hbm, ⟨68, _⟩ => ⟨S1x1x8, .f32⟩
  | .hbm, ⟨69, _⟩ => ⟨S32x16375x8, .f32⟩
  | .hbm, ⟨70, _⟩ => ⟨S32x16375x8, .f32⟩
  | .hbm, ⟨71, _⟩ => ⟨S32x16375x8, .f32⟩
  | .hbm, ⟨72, _⟩ => ⟨S32x16375x8, .f32⟩
  | .hbm, ⟨73, _⟩ => ⟨S32x16375x8, .f32⟩
  | .hbm, ⟨74, _⟩ => ⟨S32x16375x8, .f32⟩
  | .hbm, ⟨75, _⟩ => ⟨S8x1, .f32⟩
  | .hbm, ⟨76, _⟩ => ⟨S8, .f32⟩
  | .hbm, ⟨77, _⟩ => ⟨S1x1x8, .f32⟩
  | .hbm, ⟨78, _⟩ => ⟨S32x16375x8, .f32⟩
  | .hbm, ⟨79, _⟩ => ⟨S32x16375x8, .f32⟩
  | .hbm, ⟨80, _⟩ => ⟨S32x16375x8, .f32⟩
  | .hbm, ⟨81, _⟩ => ⟨S32x16375x8, .f32⟩
  | .hbm, ⟨82, _⟩ => ⟨S32x16375x8, .f32⟩
  | .hbm, ⟨83, _⟩ => ⟨S1x1x1, .f32⟩
  | .hbm, ⟨84, _⟩ => ⟨S32x16375x8, .f32⟩
  | .hbm, ⟨85, _⟩ => ⟨S32x16375x8, .f32⟩
  | _, _ => ⟨S32x16384x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩
abbrev main_v68 : Ref sig .tc := ⟨.hbm, 72, rfl⟩
abbrev main_v69 : Ref sig .tc := ⟨.hbm, 73, rfl⟩
abbrev main_v70 : Ref sig .tc := ⟨.hbm, 74, rfl⟩
abbrev main_v71 : Ref sig .tc := ⟨.hbm, 75, rfl⟩
abbrev main_v72 : Ref sig .tc := ⟨.hbm, 76, rfl⟩
abbrev main_v73 : Ref sig .tc := ⟨.hbm, 77, rfl⟩
abbrev main_v74 : Ref sig .tc := ⟨.hbm, 78, rfl⟩
abbrev main_v75 : Ref sig .tc := ⟨.hbm, 79, rfl⟩
abbrev main_v76 : Ref sig .tc := ⟨.hbm, 80, rfl⟩
abbrev main_v77 : Ref sig .tc := ⟨.hbm, 81, rfl⟩
abbrev main_v78 : Ref sig .tc := ⟨.hbm, 82, rfl⟩
abbrev main_v79 : Ref sig .tc := ⟨.hbm, 83, rfl⟩
abbrev main_v80 : Ref sig .tc := ⟨.hbm, 84, rfl⟩
abbrev main_v81 : Ref sig .tc := ⟨.hbm, 85, rfl⟩

abbrev nD : Nat := 1
abbrev τ : Topo := Topo.v7x

variable {F : FTy → Type} [FloatOps F]

class Facts₀ : Prop where
  slices_S32x16384x8_S32x16375x8_0_0_0 : S32x16384x8.Slices ![0, 0, 0] S32x16375x8
  slices_S8x9_S8x1_0_0 : S8x9.Slices ![0, 0] S8x1
  shapeCasts_S8x1_S8 : S8x1.ShapeCasts S8
  bcast_S8_S1x1x8_2 : S8.BroadcastsInDim S1x1x8 (![2] : Fin 1 → Fin S1x1x8.rank)
  bcast_S1x1x8_S32x16375x8_0_1_2 : S1x1x8.BroadcastsInDim S32x16375x8 (![0, 1, 2] : Fin 3 → Fin S32x16375x8.rank)
  bcast_S_S32x16375x8 : S_.BroadcastsInDim S32x16375x8 (![] : Fin 0 → Fin S32x16375x8.rank)
  slices_S8x9_S8x1_0_1 : S8x9.Slices ![0, 1] S8x1
  slices_S32x16384x8_S32x16375x8_0_1_0 : S32x16384x8.Slices ![0, 1, 0] S32x16375x8
  slices_S8x9_S8x1_0_2 : S8x9.Slices ![0, 2] S8x1
  slices_S32x16384x8_S32x16375x8_0_2_0 : S32x16384x8.Slices ![0, 2, 0] S32x16375x8
  slices_S8x9_S8x1_0_3 : S8x9.Slices ![0, 3] S8x1
  slices_S32x16384x8_S32x16375x8_0_3_0 : S32x16384x8.Slices ![0, 3, 0] S32x16375x8
  slices_S8x9_S8x1_0_4 : S8x9.Slices ![0, 4] S8x1
  slices_S32x16384x8_S32x16375x8_0_4_0 : S32x16384x8.Slices ![0, 4, 0] S32x16375x8
  slices_S8x9_S8x1_0_5 : S8x9.Slices ![0, 5] S8x1
  slices_S32x16384x8_S32x16375x8_0_5_0 : S32x16384x8.Slices ![0, 5, 0] S32x16375x8
  slices_S8x9_S8x1_0_6 : S8x9.Slices ![0, 6] S8x1
  slices_S32x16384x8_S32x16375x8_0_6_0 : S32x16384x8.Slices ![0, 6, 0] S32x16375x8
  slices_S8x9_S8x1_0_7 : S8x9.Slices ![0, 7] S8x1
  slices_S32x16384x8_S32x16375x8_0_7_0 : S32x16384x8.Slices ![0, 7, 0] S32x16375x8
  slices_S8x9_S8x1_0_8 : S8x9.Slices ![0, 8] S8x1
  bcast_S1_S1x1x1_2 : S1.BroadcastsInDim S1x1x1 (![2] : Fin 1 → Fin S1x1x1.rank)
  bcast_S1x1x1_S32x16375x8_0_1_2 : S1x1x1.BroadcastsInDim S32x16375x8 (![0, 1, 2] : Fin 3 → Fin S32x16375x8.rank)

variable [Facts₀]

class Facts : Prop extends Facts₀ where

variable [Facts]
-- ==== Proof.Spec.lean ====
/-
  The function both programs compute, for one batch entry and one feature.

  Given a sequence `X` of length 16384, nine weights `w 0 … w 8` and an offset `β`, the value at a position
  `n < 16375` is

      (0 + |X n · w 0 − X n · w 1| + |X n · w 0 − X (n+1) · w 2| + … + |X n · w 0 − X (n+7) · w 8|) + β :

  the eight absolute deviations of the weighted shifted samples from the weighted sample at `n`, added one after
  another to zero in this order, and the offset added last. Everything is read on the extended reals and written
  with the same grouping on both sides, so no law of arithmetic is used and nothing needs the entries to be finite.

  `ofArray` reads this at an index (batch, position, feature) of the array [32, 16375, 8], from an input laid out
  [32, 16384, 8]; `ofTransposed` reads it at an index (batch, feature, position) of [32, 8, 16375], from an input laid
  out [32, 8, 16384]. The two are one function up to the exchange of the last two axes (`ofArray_eq_ofTransposed`).
-/
import Idealize.ShloMosaic.PureOps.Ideal
import Idealize.ShloMosaic.Lib.ValueIdx

noncomputable section

namespace Cert.WindowDeviation

open Idealize.ShloMosaic Idealize.ShloMosaic.ValueIdx

/-- Position `n + k` of the long sequence, for a shift `k ≤ 8`: it stays below 16384 because `n < 16375`. -/
def shifted (n : Fin 16375) (k : ℕ) (hk : k ≤ 8) : Fin 16384 := ⟨n.val + k, by have := n.isLt; omega⟩

/-- `|p − q|` on the extended reals: the larger of the difference and its negative. -/
def absDiff (p q : EReal) : EReal := max (p - q) (-(p - q))

/-- The `k`-th deviation at position `n`: the sample at `n` weighted by `w 0` against the sample at `n + k` weighted by
    `w (k + 1)`. -/
def deviation (X : Fin 16384 → EReal) (w : Fin 9 → EReal) (n : Fin 16375) (k : ℕ) (hk : k ≤ 7) : EReal :=
  absDiff (X (shifted n 0 (by omega)) * w ⟨0, by omega⟩) (X (shifted n k (by omega)) * w ⟨k + 1, by omega⟩)

/-- The value at position `n`: zero, then the eight deviations in order, then the offset. -/
def value (X : Fin 16384 → EReal) (w : Fin 9 → EReal) (β : EReal) (n : Fin 16375) : EReal :=
  (((((((((Ideal.ofBits .f32 0x00000000#32 : EReal)
    + deviation X w n 0 (by omega)) + deviation X w n 1 (by omega)) + deviation X w n 2 (by omega))
    + deviation X w n 3 (by omega)) + deviation X w n 4 (by omega)) + deviation X w n 5 (by omega))
    + deviation X w n 6 (by omega)) + deviation X w n 7 (by omega)) + β

/-- The value depends on the sequence, the weights, the offset and the position only through their values. -/
theorem value_congr {X X' : Fin 16384 → EReal} {w w' : Fin 9 → EReal} {β β' : EReal} {n n' : Fin 16375}
    (hX : ∀ s, X s = X' s) (hw : ∀ j, w j = w' j) (hβ : β = β') (hn : n = n') : value X w β n = value X' w' β' n' := by
  obtain rfl : X = X' := funext hX
  obtain rfl : w = w' := funext hw
  subst hβ hn
  rfl

/-- The value at (batch `b`, position `n`, feature `f`) from an input laid out (batch, position, feature). -/
def atCoords (x : (⟨3, ![32, 16384, 8]⟩ : Shape).Idx → EReal) (W : (⟨2, ![8, 9]⟩ : Shape).Idx → EReal)
    (β : (⟨1, ![1]⟩ : Shape).Idx → EReal) (b : Fin 32) (n : Fin 16375) (f : Fin 8) : EReal :=
  value (fun s => x (ix3 b s f)) (fun j => W (ix2 f j)) (β (ix1 (0 : Fin 1))) n

/-- The same from an input laid out (batch, feature, position). -/
def atCoordsT (xt : (⟨3, ![32, 8, 16384]⟩ : Shape).Idx → EReal) (W : (⟨2, ![8, 9]⟩ : Shape).Idx → EReal)
    (β : (⟨1, ![1]⟩ : Shape).Idx → EReal) (b : Fin 32) (f : Fin 8) (n : Fin 16375) : EReal :=
  value (fun s => xt (ix3 b f s)) (fun j => W (ix2 f j)) (β (ix1 (0 : Fin 1))) n

/-- The whole result array, indexed (batch, position, feature). -/
def ofArray (x : (⟨3, ![32, 16384, 8]⟩ : Shape).Idx → EReal) (W : (⟨2, ![8, 9]⟩ : Shape).Idx → EReal)
    (β : (⟨1, ![1]⟩ : Shape).Idx → EReal) : (⟨3, ![32, 16375, 8]⟩ : Shape).Idx → EReal :=
  fun i => atCoords x W β (i 0) (i 1) (i 2)

/-- The whole result array in the transposed layout, indexed (batch, feature, position). -/
def ofTransposed (xt : (⟨3, ![32, 8, 16384]⟩ : Shape).Idx → EReal) (W : (⟨2, ![8, 9]⟩ : Shape).Idx → EReal)
    (β : (⟨1, ![1]⟩ : Shape).Idx → EReal) : (⟨3, ![32, 8, 16375]⟩ : Shape).Idx → EReal :=
  fun i => atCoordsT xt W β (i 0) (i 1) (i 2)

theorem ofArray_ix3 (x : (⟨3, ![32, 16384, 8]⟩ : Shape).Idx → EReal) (W : (⟨2, ![8, 9]⟩ : Shape).Idx → EReal)
    (β : (⟨1, ![1]⟩ : Shape).Idx → EReal) (b : Fin 32) (n : Fin 16375) (f : Fin 8) :
    ofArray x W β (ix3 b n f) = atCoords x W β b n f := rfl

theorem ofTransposed_ix3 (xt : (⟨3, ![32, 8, 16384]⟩ : Shape).Idx → EReal) (W : (⟨2, ![8, 9]⟩ : Shape).Idx → EReal)
    (β : (⟨1, ![1]⟩ : Shape).Idx → EReal) (b : Fin 32) (f : Fin 8) (n : Fin 16375) :
    ofTransposed xt W β (ix3 b f n) = atCoordsT xt W β b f n := rfl

/-- If `xt` is `x` with its last two axes exchanged, the value at (batch, feature, position) from `xt` is the value at
    (batch, position, feature) from `x`. -/
theorem atCoordsT_eq_atCoords (x : (⟨3, ![32, 16384, 8]⟩ : Shape).Idx → EReal)
    (xt : (⟨3, ![32, 8, 16384]⟩ : Shape).Idx → EReal) (W : (⟨2, ![8, 9]⟩ : Shape).Idx → EReal)
    (β : (⟨1, ![1]⟩ : Shape).Idx → EReal) (hx : ∀ (b : Fin 32) (f : Fin 8) (s : Fin 16384), xt (ix3 b f s) = x (ix3 b s f))
    (b : Fin 32) (f : Fin 8) (n : Fin 16375) : atCoordsT xt W β b f n = atCoords x W β b n f := by
  unfold atCoordsT atCoords
  exact congrArg (fun X => value X (fun j => W (ix2 f j)) (β (ix1 (0 : Fin 1))) n) (funext fun s => hx b f s)

end Cert.WindowDeviation

end
-- ==== Proof.RefValue.lean ====
/-
  The reference, stage by stage, is the specification.

  Read at an index (batch `b`, position `n`, feature `f`), each of the reference's slices of the input is the input at
  position `n + k` for its shift `k`; each weight column, sliced, reshaped to a vector and broadcast along batch and
  position, is the weight `W f j` of its column `j`; the offset, broadcast, is its one entry. The products, differences,
  absolute values and sums are taken entry by entry, in the order the specification writes them, and the host's
  absolute value is the extended reals' `max x (−x)` like the vector unit's. So the last stage is `ofArray`.
-/
import proofs.«166448_j38955353375392_1_alg».proof.Proof.Gen.ReferenceIdeal.Read
import proofs.«166448_j38955353375392_1_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx Cert.WindowDeviation

/-! ## The slices of the input: position `n + k` -/

theorem idx_sample_v0 (b : Fin 32) (n : Fin 16375) (f : Fin 8) :
    idx_main_v0 (ix3 b n f) = ix3 b (shifted n 0 (by omega)) f := by
  funext a; apply Fin.ext
  match a with
  | ⟨0, _⟩ => rfl
  | ⟨1, _⟩ => show n.val = n.val + 0; omega
  | ⟨2, _⟩ => rfl

theorem idx_sample_v7 (b : Fin 32) (n : Fin 16375) (f : Fin 8) :
    idx_main_v7 (ix3 b n f) = ix3 b (shifted n 0 (by omega)) f := by
  funext a; apply Fin.ext
  match a with
  | ⟨0, _⟩ => rfl
  | ⟨1, _⟩ => show n.val = n.val + 0; omega
  | ⟨2, _⟩ => rfl

theorem idx_sample_v16 (b : Fin 32) (n : Fin 16375) (f : Fin 8) :
    idx_main_v16 (ix3 b n f) = ix3 b (shifted n 1 (by omega)) f := by
  funext a; apply Fin.ext
  match a with
  | ⟨0, _⟩ => rfl
  | ⟨1, _⟩ => show 1 + n.val = n.val + 1; omega
  | ⟨2, _⟩ => rfl

theorem idx_sample_v25 (b : Fin 32) (n : Fin 16375) (f : Fin 8) :
    idx_main_v25 (ix3 b n f) = ix3 b (shifted n 2 (by omega)) f := by
  funext a; apply Fin.ext
  match a with
  | ⟨0, _⟩ => rfl
  | ⟨1, _⟩ => show 2 + n.val = n.val + 2; omega
  | ⟨2, _⟩ => rfl

theorem idx_sample_v34 (b : Fin 32) (n : Fin 16375) (f : Fin 8) :
    idx_main_v34 (ix3 b n f) = ix3 b (shifted n 3 (by omega)) f := by
  funext a; apply Fin.ext
  match a with
  | ⟨0, _⟩ => rfl
  | ⟨1, _⟩ => show 3 + n.val = n.val + 3; omega
  | ⟨2, _⟩ => rfl

theorem idx_sample_v43 (b : Fin 32) (n : Fin 16375) (f : Fin 8) :
    idx_main_v43 (ix3 b n f) = ix3 b (shifted n 4 (by omega)) f := by
  funext a; apply Fin.ext
  match a with
  | ⟨0, _⟩ => rfl
  | ⟨1, _⟩ => show 4 + n.val = n.val + 4; omega
  | ⟨2, _⟩ => rfl

theorem idx_sample_v52 (b : Fin 32) (n : Fin 16375) (f : Fin 8) :
    idx_main_v52 (ix3 b n f) = ix3 b (shifted n 5 (by omega)) f := by
  funext a; apply Fin.ext
  match a with
  | ⟨0, _⟩ => rfl
  | ⟨1, _⟩ => show 5 + n.val = n.val + 5; omega
  | ⟨2, _⟩ => rfl

theorem idx_sample_v61 (b : Fin 32) (n : Fin 16375) (f : Fin 8) :
    idx_main_v61 (ix3 b n f) = ix3 b (shifted n 6 (by omega)) f := by
  funext a; apply Fin.ext
  match a with
  | ⟨0, _⟩ => rfl
  | ⟨1, _⟩ => show 6 + n.val = n.val + 6; omega
  | ⟨2, _⟩ => rfl

theorem idx_sample_v70 (b : Fin 32) (n : Fin 16375) (f : Fin 8) :
    idx_main_v70 (ix3 b n f) = ix3 b (shifted n 7 (by omega)) f := by
  funext a; apply Fin.ext
  match a with
  | ⟨0, _⟩ => rfl
  | ⟨1, _⟩ => show 7 + n.val = n.val + 7; omega
  | ⟨2, _⟩ => rfl

/-! ## The weight columns: `W f j` -/

theorem idx_weight_v1 (b : Fin 32) (n : Fin 16375) (f : Fin 8) :
    idx_main_v1 (idx_main_v2 (idx_main_v3 (idx_main_v4 (ix3 b n f)))) = ix2 f (⟨0, by omega⟩ : Fin 9) := by
  funext a; apply Fin.ext
  match a with
  | ⟨0, _⟩ => show f.val / 1 = f.val; omega
  | ⟨1, _⟩ => rfl

theorem idx_weight_v8 (b : Fin 32) (n : Fin 16375) (f : Fin 8) :
    idx_main_v8 (idx_main_v9 (idx_main_v10 (idx_main_v11 (ix3 b n f)))) = ix2 f (⟨1, by omega⟩ : Fin 9) := by
  funext a; apply Fin.ext
  match a with
  | ⟨0, _⟩ => show f.val / 1 = f.val; omega
  | ⟨1, _⟩ => rfl

theorem idx_weight_v17 (b : Fin 32) (n : Fin 16375) (f : Fin 8) :
    idx_main_v17 (idx_main_v18 (idx_main_v19 (idx_main_v20 (ix3 b n f)))) = ix2 f (⟨2, by omega⟩ : Fin 9) := by
  funext a; apply Fin.ext
  match a with
  | ⟨0, _⟩ => show f.val / 1 = f.val; omega
  | ⟨1, _⟩ => rfl

theorem idx_weight_v26 (b : Fin 32) (n : Fin 16375) (f : Fin 8) :
    idx_main_v26 (idx_main_v27 (idx_main_v28 (idx_main_v29 (ix3 b n f)))) = ix2 f (⟨3, by omega⟩ : Fin 9) := by
  funext a; apply Fin.ext
  match a with
  | ⟨0, _⟩ => show f.val / 1 = f.val; omega
  | ⟨1, _⟩ => rfl

theorem idx_weight_v35 (b : Fin 32) (n : Fin 16375) (f : Fin 8) :
    idx_main_v35 (idx_main_v36 (idx_main_v37 (idx_main_v38 (ix3 b n f)))) = ix2 f (⟨4, by omega⟩ : Fin 9) := by
  funext a; apply Fin.ext
  match a with
  | ⟨0, _⟩ => show f.val / 1 = f.val; omega
  | ⟨1, _⟩ => rfl

theorem idx_weight_v44 (b : Fin 32) (n : Fin 16375) (f : Fin 8) :
    idx_main_v44 (idx_main_v45 (idx_main_v46 (idx_main_v47 (ix3 b n f)))) = ix2 f (⟨5, by omega⟩ : Fin 9) := by
  funext a; apply Fin.ext
  match a with
  | ⟨0, _⟩ => show f.val / 1 = f.val; omega
  | ⟨1, _⟩ => rfl

theorem idx_weight_v53 (b : Fin 32) (n : Fin 16375) (f : Fin 8) :
    idx_main_v53 (idx_main_v54 (idx_main_v55 (idx_main_v56 (ix3 b n f)))) = ix2 f (⟨6, by omega⟩ : Fin 9) := by
  funext a; apply Fin.ext
  match a with
  | ⟨0, _⟩ => show f.val / 1 = f.val; omega
  | ⟨1, _⟩ => rfl

theorem idx_weight_v62 (b : Fin 32) (n : Fin 16375) (f : Fin 8) :
    idx_main_v62 (idx_main_v63 (idx_main_v64 (idx_main_v65 (ix3 b n f)))) = ix2 f (⟨7, by omega⟩ : Fin 9) := by
  funext a; apply Fin.ext
  match a with
  | ⟨0, _⟩ => show f.val / 1 = f.val; omega
  | ⟨1, _⟩ => rfl

theorem idx_weight_v71 (b : Fin 32) (n : Fin 16375) (f : Fin 8) :
    idx_main_v71 (idx_main_v72 (idx_main_v73 (idx_main_v74 (ix3 b n f)))) = ix2 f (⟨8, by omega⟩ : Fin 9) := by
  funext a; apply Fin.ext
  match a with
  | ⟨0, _⟩ => show f.val / 1 = f.val; omega
  | ⟨1, _⟩ => rfl

/-! ## The offset: its one entry -/

theorem idx_offset (b : Fin 32) (n : Fin 16375) (f : Fin 8) :
    idx_main_v79 (idx_main_v80 (ix3 b n f)) = ix1 (0 : Fin 1) := by
  funext a; apply Fin.ext
  match a with
  | ⟨0, _⟩ => rfl

/-! ## The last stage is the specification -/

/-- The reference's last stage, as a function of the three arguments, is `ofArray` of them. -/
theorem stage_eq_spec (x0 : (⟨S32x16384x8, .f32⟩ : BufTy).Contents (Elt Ideal)) (x1 : (⟨S8x9, .f32⟩ : BufTy).Contents (Elt Ideal))
    (x2 : (⟨S1, .f32⟩ : BufTy).Contents (Elt Ideal)) :
    val_main_v81 (F := Ideal) x0 x1 x2 = ofArray x0 x1 x2 := by
  funext i
  obtain ⟨b, n, f, rfl⟩ : ∃ (b : Fin 32) (n : Fin 16375) (f : Fin 8), i = ix3 b n f := ⟨i 0, i 1, i 2, eq_ix3 i⟩
  rw [ofArray_ix3]
  simp only [val_main_v81_apply, val_main_v80_apply, val_main_v79_apply, val_main_v78_apply, val_main_v77_apply, val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, val_main_v63_apply, val_main_v62_apply, val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_v1_apply, val_main_v0_apply, val_main_cst_apply]
  simp only [idx_sample_v0, idx_sample_v7, idx_sample_v16, idx_sample_v25, idx_sample_v34, idx_sample_v43, idx_sample_v52, idx_sample_v61, idx_sample_v70, idx_weight_v1, idx_weight_v8, idx_weight_v17, idx_weight_v26, idx_weight_v35, idx_weight_v44, idx_weight_v53, idx_weight_v62, idx_weight_v71, idx_offset,
    Ideal.hostAbsf_def, Ideal.absf_def, Ideal.addf_def, Ideal.subf_def, Ideal.mulf_def, Ideal.ofBits_def]
  rfl

end Cert.ReferenceIdeal.RefValue

end
-- ==== Proof.LibKeepdims.lean ====
/-
  Layout operations of a `sum(..., keepdims=True)` read at an index written by coordinates.

  A row sum kept as a column is a vector of extent `a` cast to shape `[a, 1]`; a column used against a matrix is
  `[a, 1]` broadcast to `[a, b]`; a total kept as a `[1, 1]` block is a vector of extent `1` cast to `[1, 1]`.
  Each reads its operand at the evident coordinate: the cast keeps the row-major position, the broadcast repeats the
  one column.
-/
import Idealize.ShloMosaic.Lib.Pipeline.Value
import Idealize.ShloMosaic.Lib.ValueIdx

namespace Cert.LibKeepdims

open Idealize.ShloMosaic Idealize.ShloMosaic.ValueIdx

variable {α : Type}

/-- A vector of extent `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector of extent `1` cast to the block shape `[1, 1]` reads its one element, wherever it is read. -/
theorem shapeCast_1_11_apply (x : (⟨1, ![1]⟩ : Shape).Idx → α) (h : (⟨1, ![1]⟩ : Shape).ShapeCasts ⟨2, ![1, 1]⟩)
    (y : (⟨2, ![1, 1]⟩ : Shape).Idx) : shapeCast ⟨2, ![1, 1]⟩ x h y = x (ix1 (0 : Fin 1)) :=
  shapeCast_apply x h _ _ (by
    have h0 : (y 0).val < 1 := idx2_lt0 y
    have h1 : (y 1).val < 1 := idx2_lt1 y
    rw [Shape.rowMajor_val_two, Shape.rowMajor_val_one]
    show (0 : ℕ) = (y 0).val * 1 + (y 1).val
    omega)

/-- The `[1, 1]` block has one index. -/
theorem idx11_eq (y y' : (⟨2, ![1, 1]⟩ : Shape).Idx) : y = y' := by
  funext d
  apply Fin.ext
  match d with
  | ⟨0, _⟩ => show (y 0).val = (y' 0).val; have := idx2_lt0 y; have := idx2_lt0 y'; omega
  | ⟨1, _⟩ => show (y 1).val = (y' 1).val; have := idx2_lt1 y; have := idx2_lt1 y'; omega

end Cert.LibKeepdims
-- ==== Proof.BodyValue.lean ====
/-
  What the kernel body stores, read at an index.

  The body works on one batch entry: a block [1, 8, 16384] of the transposed input (feature, position), the whole weight
  matrix [8, 9] and the offset [1]. Read at (feature `f`, position `n`): a slice of the block starting at lane `k` is
  the block at position `n + k`; a weight column, sliced as [8, 1] and broadcast along the lanes, is `W f j`; the
  offset, extracted and splat, is its one entry. The products, differences, absolute values and sums are taken lane by
  lane in the order the specification writes them. So the stored block, at (`f`, `n`), is the specification's value for
  the sequence `s ↦ block (0, f, s)`.
-/
import proofs.«166448_j38955353375392_1_alg».proof.Proof.Gen.KernelIdeal.Skeleton
import proofs.«166448_j38955353375392_1_alg».proof.Proof.Spec
import proofs.«166448_j38955353375392_1_alg».proof.Proof.LibKeepdims
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx Cert.WindowDeviation

/-- The absolute value, lane by lane, is the extended reals' `max x (−x)`. -/
theorem absf_apply {s : Shape} (a : FVec Ideal s .f32) (i : s.Idx) : absf a i = max (a i) (-(a i)) := rfl

/-- A slice of an [8, 16384] vector starting at lane `k`, at (`f`, `n`), is the vector at position `n + k`. -/
theorem slice_apply (v1 : FVec Ideal S8x16384 .f32) (k : ℕ) (hk : k ≤ 8) (h : S8x16384.Slices ![0, k] S8x16375)
    (f : Fin 8) (n : Fin 16375) :
    extractStridedSlice S8x16375 ![0, k] v1 h (ix2 f n) = v1 (ix2 f (shifted n k hk)) := by
  refine extractStridedSlice_apply ![0, k] v1 h (ix2 f n) (ix2 f (shifted n k hk)) (fun a => ?_)
  match a with
  | ⟨0, _⟩ => show f.val = 0 + f.val; omega
  | ⟨1, _⟩ => show n.val + k = k + n.val; omega

/-- The block [1, 8, 16384] seen as [8, 16384], at (`f`, `s`), is the block at (0, `f`, `s`). -/
theorem unblock_apply (x0 : Vec Ideal S1x8x16384 .f32) (f : Fin 8) (s : Fin 16384) :
    k0_pay2 x0 (ix2 f s) = x0 (ix3 (0 : Fin 1) f s) := by
  unfold k0_pay2
  refine (shapeCast_dropUnit_apply ![8, 16384] x0 _ (ix2 f s)).trans (congrArg x0 ?_)
  funext a
  match a with
  | ⟨0, _⟩ => rfl
  | ⟨1, _⟩ => rfl
  | ⟨2, _⟩ => rfl

/-- A slice of the block (seen as [8, 16384]) starting at lane `k`, at (`f`, `n`), is the block at position `n + k`. -/
theorem sample_apply (x0 : Vec Ideal S1x8x16384 .f32) (k : ℕ) (hk : k ≤ 8) (h : S8x16384.Slices ![0, k] S8x16375)
    (f : Fin 8) (n : Fin 16375) :
    extractStridedSlice S8x16375 ![0, k] (k0_pay2 x0) h (ix2 f n) = x0 (ix3 (0 : Fin 1) f (shifted n k hk)) := by
  rw [slice_apply _ k hk h f n]
  exact unblock_apply x0 f _

/-- Column `j` of the weights, sliced as [8, 1] and broadcast along the lanes, at (`f`, `n`), is `W f j`. -/
theorem weight_apply (x1 : Vec Ideal S8x9 .f32) (j : ℕ) (hj : j < 9) (h : S8x9.Slices ![0, j] S8x1)
    (hb : S8x1.Broadcasts S8x16375) (f : Fin 8) (n : Fin 16375) :
    broadcastTo S8x16375 (extractStridedSlice S8x1 ![0, j] x1 h) hb (ix2 f n) = x1 (ix2 f (⟨j, hj⟩ : Fin 9)) := by
  refine (Cert.LibKeepdims.broadcastTo_a1_ab_apply _ hb f n).trans ?_
  refine extractStridedSlice_apply ![0, j] x1 h (ix2 f (0 : Fin 1)) (ix2 f (⟨j, hj⟩ : Fin 9)) (fun a => ?_)
  match a with
  | ⟨0, _⟩ => show f.val = 0 + f.val; omega
  | ⟨1, _⟩ => show j = j + 0; omega

/-- The offset, extracted from its one-entry vector, is that entry. -/
theorem offset_eq (x2 : Vec Ideal S1 .f32) : k0_pay3 x2 = x2 (ix1 (0 : Fin 1)) := by
  unfold k0_pay3 extractAt
  refine congrArg x2 ?_
  funext a
  match a with
  | ⟨0, _⟩ => rfl

/-- The computed [8, 16375] value stored as a [1, 8, 16375] block reads, at (`u`, `f`, `n`), the value at (`f`, `n`). -/
theorem stored_apply (v : FVec Ideal S8x16375 .f32) (h : S8x16375.ShapeCasts S1x8x16375) (u : Fin 1) (f : Fin 8) (n : Fin 16375) :
    shapeCast S1x8x16375 v h (ix3 u f n) = v (ix2 f n) := by
  refine (shapeCast_addUnit_apply ![8, 16375] v h (ix3 u f n)).trans (congrArg v ?_)
  funext a
  match a with
  | ⟨0, _⟩ => rfl
  | ⟨1, _⟩ => rfl

/-- THE STORED BLOCK at (`u`, `f`, `n`) is the specification's value for the block's row `f`. -/
theorem body_apply (x0 : Vec Ideal S1x8x16384 .f32) (x1 : Vec Ideal S8x9 .f32) (x2 : Vec Ideal S1 .f32)
    (u : Fin 1) (f : Fin 8) (n : Fin 16375) :
    k0_pay1 (k0_pay2 x0) x1 (k0_pay3 x2) (k0_pay4 x0 x1) (k0_pay5 x0 x1) (ix3 u f n)
      = value (fun s => x0 (ix3 (0 : Fin 1) f s)) (fun j => x1 (ix2 f j)) (x2 (ix1 (0 : Fin 1))) n := by
  unfold k0_pay1
  refine (stored_apply _ _ u f n).trans ?_
  simp only [k0_pay5, k0_pay4, addf_apply, subf_apply, mulf_apply, absf_apply, broadcast_apply, offset_eq]
  simp only [sample_apply x0 0 (by omega) slices_S8x16384_o0_0_S8x16375 f n,
    sample_apply x0 1 (by omega) slices_S8x16384_o0_1_S8x16375 f n,
    sample_apply x0 2 (by omega) slices_S8x16384_o0_2_S8x16375 f n,
    sample_apply x0 3 (by omega) slices_S8x16384_o0_3_S8x16375 f n,
    sample_apply x0 4 (by omega) slices_S8x16384_o0_4_S8x16375 f n,
    sample_apply x0 5 (by omega) slices_S8x16384_o0_5_S8x16375 f n,
    sample_apply x0 6 (by omega) slices_S8x16384_o0_6_S8x16375 f n,
    sample_apply x0 7 (by omega) slices_S8x16384_o0_7_S8x16375 f n,
    weight_apply x1 0 (by omega) slices_S8x9_o0_0_S8x1 broadcasts_S8x1_S8x16375 f n,
    weight_apply x1 1 (by omega) slices_S8x9_o0_1_S8x1 broadcasts_S8x1_S8x16375 f n,
    weight_apply x1 2 (by omega) slices_S8x9_o0_2_S8x1 broadcasts_S8x1_S8x16375 f n,
    weight_apply x1 3 (by omega) slices_S8x9_o0_3_S8x1 broadcasts_S8x1_S8x16375 f n,
    weight_apply x1 4 (by omega) slices_S8x9_o0_4_S8x1 broadcasts_S8x1_S8x16375 f n,
    weight_apply x1 5 (by omega) slices_S8x9_o0_5_S8x1 broadcasts_S8x1_S8x16375 f n,
    weight_apply x1 6 (by omega) slices_S8x9_o0_6_S8x1 broadcasts_S8x1_S8x16375 f n,
    weight_apply x1 7 (by omega) slices_S8x9_o0_7_S8x1 broadcasts_S8x1_S8x16375 f n,
    weight_apply x1 8 (by omega) slices_S8x9_o0_8_S8x1 broadcasts_S8x1_S8x16375 f n]
  rfl

end Cert.KernelIdeal.BodyValue

end
-- ==== Proof.RegionValue.lean ====
/-
  What the region leaves in its output array.

  The grid has one point per batch entry. At point `t` the input window holds batch entry `t` of the transposed input
  [32, 8, 16384] as a block [1, 8, 16384]; the weights and the offset are whole; the output window's block is batch
  entry `t` of the output [32, 8, 16375]. The body's stored block is, lane by lane, the specification's value for the
  block's row (the body module), so what point `t` writes back is block `t` of the specification read in the
  transposed layout, `ofTransposed`, of the arrays as the region finds them. Every index of the output lies in the block
  of the point named by its batch coordinate, so the output array ends as `ofTransposed` of those arrays.
-/
import proofs.«166448_j38955353375392_1_alg».proof.Proof.Gen.KernelIdeal.Frame
import proofs.«166448_j38955353375392_1_alg».proof.Proof.BodyValue
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx Cert.WindowDeviation
open Idealize.ShloMosaic.Pipeline (Dat)

variable (m : (ℓ : Loc nD τ sig) → Buf (Elt Ideal) ℓ)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- Where each window's block sits at point `t`, decided over the 32 points: the input's and the output's blocks are
    batch entry `t`, at the origin of the other two axes; the weights' and the offset's blocks are at the origin. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- The body's stored block, as a function of the three input blocks, at a block index `y`: the specification's value
    for row `y 1` of the input block, at position `y 2`. -/
theorem stored_block (x0 : Vec Ideal S1x8x16384 .f32) (x1 : Vec Ideal S8x9 .f32) (x2 : Vec Ideal S1 .f32) (y : S1x8x16375.Idx) :
    out0_3 x0 x1 x2 y
      = value (fun s => x0 (ix3 (0 : Fin 1) (y 1) s)) (fun j => x1 (ix2 (y 1) j)) (x2 (ix1 (0 : Fin 1))) (y 2) := by
  unfold out0_3
  rw [View.canon_unit_zero zero3]
  simp only [View.ld_unit_zero (S := S1x8x16384) zero3, View.ld_unit_zero (S := S8x9) zero2, View.ld_unit_zero (S := S1) zero1]
  obtain ⟨u, f, n, rfl⟩ : ∃ (u : Fin 1) (f : Fin 8) (n : Fin 16375), y = ix3 u f n := ⟨y 0, y 1, y 2, eq_ix3 y⟩
  exact Cert.KernelIdeal.BodyValue.body_apply x0 x1 x2 u f n

/-- The input window's block at point `t`, at (0, `f`, `s`), is the transposed input at (`t`, `f`, `s`). -/
theorem input_block (c : Dev nD) (t : Fin cfg0.N) (f : Fin 8) (s : Fin 16384) (i : S32x8x16384.Idx)
    (h0 : (i 0).val = t.val) (h1 : (i 1).val = f.val) (h2 : (i 2).val = s.val) :
    iblk m c 0 t (ix3 (0 : Fin 1) f s) = V m c main_v0 i := by
  show V m c main_v0 (((cfg0.win 0).blk t).view.emb (ix3 (0 : Fin 1) f s)) = V m c main_v0 i
  refine congrArg (V m c main_v0) ?_
  obtain ⟨e0, e1, e2, -⟩ := block_index t
  funext a; apply Fin.ext
  match a with
  | ⟨0, _⟩ => show win0_0.index t (0 : Fin 3) * 1 + 1 * 0 = (i 0).val; omega
  | ⟨1, _⟩ => show win0_0.index t (1 : Fin 3) * 8 + 1 * f.val = (i 1).val; omega
  | ⟨2, _⟩ => show win0_0.index t (2 : Fin 3) * 16384 + 1 * s.val = (i 2).val; omega

/-- The weights' block at any point is the weight matrix. -/
theorem weight_block (c : Dev nD) (t : Fin cfg0.N) (f : Fin 8) (j : Fin 9) (i : S8x9.Idx)
    (h0 : (i 0).val = f.val) (h1 : (i 1).val = j.val) :
    iblk m c 1 t (ix2 f j) = V m c main_arg1 i := by
  show V m c main_arg1 (((cfg0.win 1).blk t).view.emb (ix2 f j)) = V m c main_arg1 i
  refine congrArg (V m c main_arg1) ?_
  obtain ⟨-, -, -, e0, e1, -⟩ := block_index t
  funext a; apply Fin.ext
  match a with
  | ⟨0, _⟩ => show win0_1.index t (0 : Fin 2) * 8 + 1 * f.val = (i 0).val; omega
  | ⟨1, _⟩ => show win0_1.index t (1 : Fin 2) * 9 + 1 * j.val = (i 1).val; omega

/-- The offset's block at any point is the offset. -/
theorem offset_block (c : Dev nD) (t : Fin cfg0.N) :
    iblk m c 2 t (ix1 (0 : Fin 1)) = V m c main_arg2 (ix1 (0 : Fin 1)) := by
  show V m c main_arg2 (((cfg0.win 2).blk t).view.emb (ix1 (0 : Fin 1))) = V m c main_arg2 (ix1 (0 : Fin 1))
  refine congrArg (V m c main_arg2) ?_
  obtain ⟨-, -, -, -, -, e0, -⟩ := block_index t
  funext a; apply Fin.ext
  match a with
  | ⟨0, _⟩ => show win0_2.index t (0 : Fin 1) * 1 + 1 * 0 = 0; omega

/-- What the body leaves at point `t`, at a block index `y`, is `ofTransposed` of the arrays the region finds, at the
    array index under `y` in the output's block `t`. -/
theorem point_value (c : Dev nD) (t : Fin cfg0.N) (y : S1x8x16375.Idx) :
    out0_3 (iblk m c 0 t) (iblk m c 1 t) (iblk m c 2 t) y
      = ofTransposed (V m c main_v0) (V m c main_arg1) (V m c main_arg2) (((cfg0.win 3).blk t).view.emb y) := by
  rw [stored_block]
  obtain ⟨-, -, -, -, -, -, e0, e1, e2⟩ := block_index t
  have hy0 : (y 0).val < 1 := (y 0).isLt
  unfold ofTransposed atCoordsT
  refine value_congr (fun s => ?_) (fun j => ?_) ?_ ?_
  · refine input_block m c t (y 1) s _ ?_ ?_ rfl
    · show win0_3.index t (0 : Fin 3) * 1 + 1 * (y 0).val = t.val; omega
    · show win0_3.index t (1 : Fin 3) * 8 + 1 * (y 1).val = (y 1).val; omega
  · refine weight_block m c t (y 1) j _ ?_ rfl
    show win0_3.index t (1 : Fin 3) * 8 + 1 * (y 1).val = (y 1).val; omega
  · exact offset_block m c t
  · apply Fin.ext
    show (y 2).val = win0_3.index t (2 : Fin 3) * 16375 + 1 * (y 2).val; omega

/-- WHAT POINT `t` WRITES BACK is block `t` of `ofTransposed` of the arrays as the region finds them. -/
theorem flushed_eq (c : Dev nD) (t : Fin cfg0.N) :
    (dats m 0 c).flushed 3 t
      = ((cfg0.win 3).blk t).view.read (Elt Ideal) (ofTransposed (V m c main_v0) (V m c main_arg1) (V m c main_arg2)) := by
  show (cfg0.win 3).cut (grid0.coords t) ((dats m 0 c).after 3 t) = _
  rw [after0_3]
  funext j
  exact point_value m c t j

/-- An index of the output is in point `t`'s block iff each coordinate is in the block's range on its axis. -/
theorem mem_block (t : Fin cfg0.N) (i : S32x8x16375.Idx) :
    i ∈ ((cfg0.win 3).blk t).view.set ↔ ∀ a : Fin 3, win0_3.index t a * S1x8x16375.size a ≤ (i a).val
      ∧ (i a).val < win0_3.index t a * S1x8x16375.size a + S1x8x16375.size a := by
  show i ∈ ((View.whole main_v1).slice (win0_3.rect t)).set ↔ _
  rw [View.set_slice_whole, Rect.mem_set_unit]
  exact Iff.rfl

/-- Every index of the output is in the block of the point its batch coordinate names, which writes back. -/
theorem covered (i : S32x8x16375.Idx) :
    ∃ t : Fin cfg0.N, (cfg0.win 3).flush t = true ∧ i ∈ ((cfg0.win 3).blk t).view.set := by
  have hN : grid0.N = 32 := N_0
  have hi0 : (i 0).val < 32 := (i 0).isLt
  have hi1 : (i 1).val < 8 := (i 1).isLt
  have hi2 : (i 2).val < 16375 := (i 2).isLt
  have ht : (i 0).val < grid0.N := by omega
  refine ⟨⟨(i 0).val, ht⟩, flush0_3 _, ?_⟩
  obtain ⟨-, -, -, -, -, -, e0, e1, e2⟩ := block_index ⟨(i 0).val, ht⟩
  have e0' : win0_3.index ⟨(i 0).val, ht⟩ (0 : Fin 3) = (i 0).val := e0
  rw [mem_block]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    omega
  | ⟨1, _⟩ =>
    show win0_3.index ⟨(i 0).val, ht⟩ (1 : Fin 3) * 8 ≤ (i 1).val ∧ (i 1).val < win0_3.index ⟨(i 0).val, ht⟩ (1 : Fin 3) * 8 + 8
    omega
  | ⟨2, _⟩ =>
    show win0_3.index ⟨(i 0).val, ht⟩ (2 : Fin 3) * 16375 ≤ (i 2).val ∧ (i 2).val < win0_3.index ⟨(i 0).val, ht⟩ (2 : Fin 3) * 16375 + 16375
    omega

/-- THE OUTPUT ARRAY after the region: `ofTransposed` of the arrays as the region finds them. -/
theorem region_array (c : Dev nD) :
    (dats m 0 c).arrAt 3 cfg0.N = ofTransposed (V m c main_v0) (V m c main_arg1) (V m c main_arg2) :=
  (dats m 0 c).arrAt_eq_of_cover 3 _ (fun t _ => flushed_eq m c t) covered

end Cert.KernelIdeal.RegionValue

end
-- ==== Proof.ProgramValue.lean ====
/-
  The kernel's whole program: transpose, region, transpose back.

  Before the region the host exchanges the last two axes of the input, [32, 16384, 8] to [32, 8, 16384]: that array is
  what the region's input window stages. The weights and the offset reach the region as launched. After the region the
  host exchanges the last two axes of the region's output, [32, 8, 16375] to [32, 16375, 8]: that is the program's result.
  Read at (batch, position, feature), the result is the region's output at (batch, feature, position), which is the
  specification's value from the transposed input (the region module), which is the specification's value from the input
  itself: `ofArray` of the three arguments.
-/
import proofs.«166448_j38955353375392_1_alg».proof.Proof.Gen.KernelIdeal.Frame
import proofs.«166448_j38955353375392_1_alg».proof.Proof.RegionValue
import Idealize.ShloMosaic.Lib.Pipeline.Value
import Idealize.ShloMosaic.Lib.StableHlo.Run

noncomputable section

namespace Cert.KernelIdeal.ProgramValue

open Cert.KernelIdeal Cert.KernelIdeal.Gen Idealize.ShloMosaic Idealize.ShloMosaic.TcCoe Idealize.SL.Sem
open Idealize.ShloMosaic.ValueIdx Cert.WindowDeviation Idealize.ShloMosaic.StableHlo
open Idealize.ShloMosaic.Pipeline (Dat)

variable (m : (ℓ : Loc nD τ sig) → Buf (Elt Ideal) ℓ) (ρ : Dev nD → PrngReg)

/-- The array the region's input window stages is the input with its last two axes exchanged. -/
theorem staged_input (c : Dev nD) :
    (V m c main_v0 : S32x8x16384.Idx → EReal)
      = transpose S32x8x16384 [0, 2, 1] (m ((c : Thread nD τ).loc main_arg0)) transposes_S32x16384x8_S32x8x16384_0_2_1 := by
  show StableHlo.after hostOps0 (fun b => m (c, b)) (Proc.devRef .tc main_v0) = _
  after_results

/-- The exchange of the last two axes before the region, at (`b`, `f`, `s`), reads the input at (`b`, `s`, `f`). -/
theorem transposed_in_apply (x : S32x16384x8.Idx → EReal) (b : Fin 32) (f : Fin 8) (s : Fin 16384) :
    transpose S32x8x16384 [0, 2, 1] x transposes_S32x16384x8_S32x8x16384_0_2_1 (ix3 b f s) = x (ix3 b s f) := by
  refine transpose_apply [0, 2, 1] x transposes_S32x16384x8_S32x8x16384_0_2_1 (ix3 b f s) (ix3 b s f) (fun a => ?_)
  match a with
  | ⟨0, _⟩ => rfl
  | ⟨1, _⟩ => rfl
  | ⟨2, _⟩ => rfl

/-- The exchange of the last two axes after the region, at (`b`, `n`, `f`), reads the region's output at (`b`, `f`, `n`). -/
theorem transposed_out_apply (y : S32x8x16375.Idx → EReal) (b : Fin 32) (n : Fin 16375) (f : Fin 8) :
    transpose S32x16375x8 [0, 2, 1] y transposes_S32x8x16375_S32x16375x8_0_2_1 (ix3 b n f) = y (ix3 b f n) := by
  refine transpose_apply [0, 2, 1] y transposes_S32x8x16375_S32x16375x8_0_2_1 (ix3 b n f) (ix3 b f n) (fun a => ?_)
  match a with
  | ⟨0, _⟩ => rfl
  | ⟨1, _⟩ => rfl
  | ⟨2, _⟩ => rfl

/-- Transposing, taking the specification in the transposed layout and transposing back is the specification. -/
theorem around_eq_spec (x : S32x16384x8.Idx → EReal) (W : S8x9.Idx → EReal) (β : S1.Idx → EReal) :
    transpose S32x16375x8 [0, 2, 1]
        (ofTransposed (transpose S32x8x16384 [0, 2, 1] x transposes_S32x16384x8_S32x8x16384_0_2_1) W β)
        transposes_S32x8x16375_S32x16375x8_0_2_1
      = ofArray x W β := by
  funext i
  obtain ⟨b, n, f, rfl⟩ : ∃ (b : Fin 32) (n : Fin 16375) (f : Fin 8), i = ix3 b n f := ⟨i 0, i 1, i 2, eq_ix3 i⟩
  rw [transposed_out_apply, ofTransposed_ix3, ofArray_ix3]
  exact atCoordsT_eq_atCoords x _ W β (fun b f s => transposed_in_apply x b f s) b f n

/-- The program's result buffer after the lines that follow the region: `ofArray` of the three arguments as launched. -/
theorem result_eq (c : Dev nD) :
    (Pipeline.afterTail₀ cfgs (dats m) 0 (V0 m) [hostOps1] c main_v2 : S32x16375x8.Idx → EReal)
      = ofArray (m ((c : Thread nD τ).loc main_arg0)) (m ((c : Thread nD τ).loc main_arg1)) (m ((c : Thread nD τ).loc main_arg2)) := by
  have hreg := Cert.KernelIdeal.RegionValue.region_array m c
  rw [staged_input m c, V_main_arg1 m c, V_main_arg2 m c] at hreg
  refine Eq.trans ?_ (around_eq_spec _ _ _)
  unfold Pipeline.afterTail₀
  show StableHlo.after hostOps1 _ (Proc.devRef .tc main_v2) = _
  after_results
  refine congrArg (fun A => transpose S32x16375x8 [0, 2, 1] A transposes_S32x8x16375_S32x16375x8_0_2_1) ?_
  exact (Pipeline.withArrays_arr spec0 launch0.win.arr_inj c _ _ 3).trans hreg

/-- THE KERNEL'S RUN: every weakly fair execution terminates with the result buffer at `ofArray` of the arguments and
    the arguments unchanged. -/
theorem run : θ_run defs (onTc (τ := τ) (main (F := Ideal))) ⟨m, fun _ => 0, ρ⟩ (fun r => ∀ c : Dev nD,
      r.2.mem ((c.tc : Thread nD τ).loc main_v2)
        = ofArray (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.KernelIdeal.ProgramValue

end
-- ==== Proof.lean ====
/-
  A sliding-window sum of absolute deviations, computed two ways.

  For an input `x` of shape [32, 16384, 8] (batch, position, feature), weights `W` of shape [8, 9] and an offset `b` of
  shape [1], both programs return the array [32, 16375, 8] whose entry at (batch `β`, position `n`, feature `f`) is

      (0 + Σ_{k = 0..7} | x β n f · W f 0 − x β (n+k) f · W f (k+1) |) + b 0,

  the eight terms added to zero one after another in the order of `k`, the offset last. The reference computes it on the
  whole array with slices along the position axis. The kernel exchanges the last two axes, lets one grid point per batch
  entry compute the same expression on a block [8, 16384] with slices along the lanes, and exchanges the axes back.
  On the extended reals the two are the same expression at every index: the operations, their order and the one
  literal (zero) agree, the host's absolute value and the vector unit's are both `max x (−x)`, and the exchanges of axes
  cancel. No law of arithmetic is needed, so the precondition (finite inputs) is never opened.

  The modules: Spec (the function, for one batch entry and feature, and its two array readings); RefValue (the reference's
  last stage is the function); BodyValue (the kernel body's stored block, lane by lane); RegionValue (what each grid point
  writes back, and the region's output array); ProgramValue (the two exchanges of axes, and the kernel's run). The three
  frames are the generated frames, the reference's being its generated run with the result dropped; the idealization
  rewrote nothing, so its conjunct is `True`.
-/
import proofs.«166448_j38955353375392_1_alg».proof.Defs
import proofs.«166448_j38955353375392_1_alg».proof.Proof.Gen.Kernel
import proofs.«166448_j38955353375392_1_alg».proof.Proof.Gen.Kernel.Skeleton
import proofs.«166448_j38955353375392_1_alg».proof.Proof.Gen.Kernel.Launch
import proofs.«166448_j38955353375392_1_alg».proof.Proof.Gen.Kernel.Points
import proofs.«166448_j38955353375392_1_alg».proof.Proof.Gen.Kernel.Frame
import proofs.«166448_j38955353375392_1_alg».proof.Proof.Gen.KernelIdeal
import proofs.«166448_j38955353375392_1_alg».proof.Proof.Gen.KernelIdeal.Skeleton
import proofs.«166448_j38955353375392_1_alg».proof.Proof.Gen.KernelIdeal.Launch
import proofs.«166448_j38955353375392_1_alg».proof.Proof.Gen.KernelIdeal.Points
import proofs.«166448_j38955353375392_1_alg».proof.Proof.Gen.KernelIdeal.Frame
import proofs.«166448_j38955353375392_1_alg».proof.Proof.Gen.ReferenceIdeal
import proofs.«166448_j38955353375392_1_alg».proof.Proof.Gen.Pre_finite_inputs
import proofs.«166448_j38955353375392_1_alg».proof.Proof.Gen.ReferenceIdeal.Run
import proofs.«166448_j38955353375392_1_alg».proof.Proof.Gen.ReferenceIdeal.Read
import proofs.«166448_j38955353375392_1_alg».proof.Proof.RefValue
import proofs.«166448_j38955353375392_1_alg».proof.Proof.ProgramValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- From memories that agree on the three arguments both programs end with the same result: the kernel's run ends at
    the sliding-window function of its arguments, the reference's last stage is that function of its own, and the
    arguments agree. -/
theorem algebraic : Cert.algebraic_KernelIdeal_ReferenceIdeal := by
  intro m ρ m' ρ' _ hagree
  refine ⟨_, Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v81_eq, Cert.ReferenceIdeal.RefValue.stage_eq_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
